-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x2 .f32) (main_arg5 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x2 : Shape := ⟨2, ![50000, 2]⟩
abbrev S2000x2 : Shape := ⟨2, ![2000, 2]⟩
abbrev S850000x2 : Shape := ⟨2, ![850000, 2]⟩
abbrev S1x2 : Shape := ⟨2, ![1, 2]⟩

abbrev nBuf : Space → Nat
  | .hbm => 85
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .bf16⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .bf16⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x2, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x2, .f32⟩
  | .hbm, ⟨75, _⟩ => ⟨S850000x1, .f32⟩
  | .hbm, ⟨76, _⟩ => ⟨S850000x2, .f32⟩
  | .hbm, ⟨77, _⟩ => ⟨S850000x2, .f32⟩
  | .hbm, ⟨78, _⟩ => ⟨S_, .f32⟩
  | .hbm, ⟨79, _⟩ => ⟨S50000x2, .f32⟩
  | .hbm, ⟨80, _⟩ => ⟨S850000x1, .i32⟩
  | .hbm, ⟨81, _⟩ => ⟨S50000x2, .f32⟩
  | .hbm, ⟨82, _⟩ => ⟨S1x2, .f32⟩
  | .hbm, ⟨83, _⟩ => ⟨S50000x2, .f32⟩
  | .hbm, ⟨84, _⟩ => ⟨S50000x2, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .bf16⟩
  | .local _ .vmem, ⟨4, _⟩ => ⟨S2000x256, .bf16⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S256x2, .f32⟩
  | .local _ .vmem, ⟨9, _⟩ => ⟨S2000x2, .f32⟩
  | .local _ .vmem, ⟨10, _⟩ => ⟨S2000x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x2_S256x2_0_0 : ∀ a, (![0, 0] : Fin 2 → Nat) a + S256x2.size a ≤ S256x2.size a
  h_S256x2 : 0 < S256x2.numel
  inb_S2000x2_S2000x2_0_0 : ∀ a, (![0, 0] : Fin 2 → Nat) a + S2000x2.size a ≤ S2000x2.size a
  h_S2000x2 : 0 < S2000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x2_S2000x2_1_0_0_1_n_n_wf : DotDims.WF S2000x256 S256x2 S2000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2.size a ≤ S256x2.size a
  hwx1_2 : ∀ i : grid1.Coords, EltTy.bits .f32 = 32 ∨ (Rect.block (s := S256x2) S256x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x2.size a ≤ S50000x2.size a
  hwx1_3 : ∀ i : grid1.Coords, EltTy.bits .f32 = 32 ∨ (Rect.block (s := S50000x2) S2000x2.size (cc1_transform_3 i) (hinb1_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S2000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x2, .f32⟩
  | .hbm, ⟨5, _⟩ => ⟨S2, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x2, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x2, .f32⟩
  | .hbm, ⟨79, _⟩ => ⟨S850000x1, .f32⟩
  | .hbm, ⟨80, _⟩ => ⟨S850000x2, .f32⟩
  | .hbm, ⟨81, _⟩ => ⟨S850000x2, .f32⟩
  | .hbm, ⟨82, _⟩ => ⟨S_, .f32⟩
  | .hbm, ⟨83, _⟩ => ⟨S50000x2, .f32⟩
  | .hbm, ⟨84, _⟩ => ⟨S850000x1, .i32⟩
  | .hbm, ⟨85, _⟩ => ⟨S50000x2, .f32⟩
  | .hbm, ⟨86, _⟩ => ⟨S1x2, .f32⟩
  | .hbm, ⟨87, _⟩ => ⟨S50000x2, .f32⟩
  | .hbm, ⟨88, _⟩ => ⟨S50000x2, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.RefPieces.lean ====
/-
  The reference program's result as a composition of named pieces. A graph convolution layer takes node features
  `h`, gathers the source node's row for every edge (self-loops appended), scales it by the edge's normalization
  `dinv[src] · dinv[dst]` (`dinv` the inverse square root of the in-degree, zero where the degree is not positive) and
  adds it into the destination node's row. The program is two such layers around a rectifier: features times the
  first weight, aggregated, plus the first bias, rectified, times the second weight, aggregated, plus the second bias.
  Each piece below is one of these steps as the program spells it, over the reference program's own shape records.
-/
import proofs.«158911_j52089363366228_2_alg».proof.Proof.Gen.ReferenceIdeal

noncomputable section

namespace Cert.ReferenceIdeal.Pieces

open Cert.ReferenceIdeal Cert.ReferenceIdeal.Gen Idealize.ShloMosaic Idealize.ShloMosaic.TcCoe Idealize.SL.Sem

variable {F : FTy → Type} [FloatOps F]

/-- The source node of every edge: row 0 of the edge list, then every node once (the self-loops). -/
def srcOf (x1 : IVec S2x800000 32) : IVec S850000 32 :=
  concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0

/-- The destination node of every edge: row 1 of the edge list, then every node once. -/
def dstOf (x1 : IVec S2x800000 32) : IVec S850000 32 :=
  concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0

/-- Node numbers as a column of gather indices, a negative one counted from the end (`i < 0 ? i + 50000 : i`). -/
def wrapCol (s : IVec S850000 32) : IVec S850000x1 32 :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- Node numbers as a column of scatter indices. -/
def colOf (d : IVec S850000 32) : IVec S850000x1 32 :=
  broadcastInDim S850000x1 ![0] bcast_S850000_S850000x1_0 d

/-- The in-degree of every node: ones added at the destinations. -/
def degOf (d : IVec S850000 32) : FVec F S50000 .f32 :=
  Host.scatterAdd scatter_S50000_S850000x1_S850000_n_0_0_1 (broadcastInDim S50000 ![] bcast_S_S50000 (constant S_ .f32 0x00000000#32)) (colOf d) (broadcastInDim S850000 ![] bcast_S_S850000 (constant S_ .f32 0x3F800000#32))

/-- The inverse square root of the degree where it is positive, zero elsewhere. -/
def dinvOf (d : IVec S850000 32) : FVec F S50000 .f32 :=
  select (cmpf (F := F) .ogt (degOf d) (broadcastInDim S50000 ![] bcast_S_S50000 (constant S_ .f32 0x00000000#32))) (Host.rsqrt (degOf d)) (broadcastInDim S50000 ![] bcast_S_S50000 (id (constant S_ .f32 0x00000000#32)))

/-- The normalization of every edge: `dinv` at its source times `dinv` at its destination. -/
def normOf (s d : IVec S850000 32) : FVec F S850000 .f32 :=
  mulf (Host.gather gather_S50000_S850000x1_S850000_n_0_n_n_0_1_1 (dinvOf (F := F) d) (wrapCol s)) (Host.gather gather_S50000_S850000x1_S850000_n_0_n_n_0_1_1 (dinvOf (F := F) d) (wrapCol d))

/-- One aggregation over 256 feature columns: each edge's source row, scaled, added into its destination row. -/
def aggregate256 (s d : IVec S850000 32) (nrm : FVec F S850000 .f32) (h : FVec F S50000x256 .f32) : FVec F S50000x256 .f32 :=
  Host.scatterAdd scatter_S50000x256_S850000x1_S850000x256_1_0_0_1 (broadcastInDim S50000x256 ![] bcast_S_S50000x256 (constant S_ .f32 0x00000000#32)) (colOf d) (mulf (Host.gather gather_S50000x256_S850000x1_S850000x256_1_0_n_n_0_1_1256 h (wrapCol s)) (broadcastInDim S850000x256 ![0, 1] bcast_S850000x1_S850000x256_0_1 (broadcastInDim S850000x1 ![0] bcast_S850000_S850000x1_0 nrm)))

/-- The same aggregation over 2 feature columns. -/
def aggregate2 (s d : IVec S850000 32) (nrm : FVec F S850000 .f32) (h : FVec F S50000x2 .f32) : FVec F S50000x2 .f32 :=
  Host.scatterAdd scatter_S50000x2_S850000x1_S850000x2_1_0_0_1 (broadcastInDim S50000x2 ![] bcast_S_S50000x2 (constant S_ .f32 0x00000000#32)) (colOf d) (mulf (Host.gather gather_S50000x2_S850000x1_S850000x2_1_0_n_n_0_1_12 h (wrapCol s)) (broadcastInDim S850000x2 ![0, 1] bcast_S850000x1_S850000x2_0_1 (broadcastInDim S850000x1 ![0] bcast_S850000_S850000x1_0 nrm)))

/-- The first bias as a row, `[256] → [1, 256]`. -/
def biasRow (b1 : FVec F S256 .f32) : FVec F S1x256 .f32 :=
  broadcastInDim S1x256 ![1] bcast_S256_S1x256_1 b1

/-- The hidden layer: the aggregated features plus the bias row on every row, rectified. -/
def hidden (a : FVec F S50000x256 .f32) (row : FVec F S1x256 .f32) : FVec F S50000x256 .f32 :=
  maximumf (addf a (broadcastInDim S50000x256 ![0, 1] bcast_S1x256_S50000x256_0_1 row)) (broadcastInDim S50000x256 ![] bcast_S_S50000x256 (constant S_ .f32 0x00000000#32))

/-- The last step: the second aggregation plus the second bias on every row. -/
def finish (s d : IVec S850000 32) (nrm : FVec F S850000 .f32) (h2 : FVec F S50000x2 .f32) (b2 : FVec F S2 .f32) : FVec F S50000x2 .f32 :=
  addf (aggregate2 s d nrm h2) (broadcastInDim S50000x2 ![0, 1] bcast_S1x2_S50000x2_0_1 (broadcastInDim S1x2 ![1] bcast_S2_S1x2_1 b2))

/-- The whole forward pass as the composition of the pieces. -/
def out (x0 : FVec F S50000x512 .f32) (x1 : IVec S2x800000 32) (x2 : FVec F S512x256 .f32) (x3 : FVec F S256 .f32) (x4 : FVec F S256x2 .f32) (x5 : FVec F S2 .f32) : FVec F S50000x2 .f32 :=
  finish (srcOf x1) (dstOf x1) (normOf (srcOf x1) (dstOf x1))
    (Host.dotGeneral dot_S50000x256_S256x2_S50000x2_1_0_0_1_n_n none
      (hidden (aggregate256 (srcOf x1) (dstOf x1) (normOf (srcOf x1) (dstOf x1)) (Host.dotGeneral dot_S50000x512_S512x256_S50000x256_1_0_0_1_n_n none x0 x2)) (biasRow x3)) x4) x5

end Cert.ReferenceIdeal.Pieces

end
-- ==== Proof.RefOut.lean ====
/-
  The reference program's run ends with its result array at the composition of the pieces: the run's composed term,
  spelt out in full, is that composition with every piece unfolded.
-/
import proofs.«158911_j52089363366228_2_alg».proof.Proof.RefRunPatched
import proofs.«158911_j52089363366228_2_alg».proof.Proof.RefPieces

noncomputable section

namespace Cert.ReferenceIdeal.Pieces

open Cert.ReferenceIdeal Cert.ReferenceIdeal.Gen Idealize.ShloMosaic Idealize.ShloMosaic.TcCoe Idealize.SL.Sem

variable {F : FTy → Type} [FloatOps F]

set_option maxRecDepth 8192 in
/-- The run's composed result term is the composition of the pieces, at the launch contents of the six arguments. -/
theorem out_eq (m : (ℓ : Loc nD τ sig) → Buf (Elt F) ℓ) (c : Dev nD) :
    Cert.ReferenceIdeal.ValueP.res_main_v64 m c = out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v64 out finish hidden biasRow aggregate2 aggregate256 normOf dinvOf degOf colOf wrapCol srcOf dstOf
  rfl

end Cert.ReferenceIdeal.Pieces

end
-- ==== Proof.KernelResultRun.lean ====
/-
  The idealized kernel program's run with its RESULT read: @main is seven segments — three stretches of host
  operations, the first matrix-product region, a stretch of host operations (gather, scale, scatter-add), the second
  region (bias, rectifier, matrix product), and the last stretch (gather, scale, scatter-add, bias) — and every weakly fair
  execution ends with each unscoped buffer at the last boundary's contents. The frame states that for the argument
  arrays; here the same launch over the same segments is read at the result buffer as well: the result array ends at
  the fold's last valuation at its reference.
-/
import proofs.«158911_j52089363366228_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents (the fold of the host stretches and the two regions' write-backs from the launch memory) and the argument
    arrays as launched. -/
theorem run_result : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ResultRun

end
-- ==== Proof.KernelHost.lean ====
/-
  The idealized kernel program's host side, read. Between the launch and the return the buffer contents pass through
  seven boundaries (the fold `W0 … W7` of the generated frame): host stretches apply their operations, the two kernel
  regions replace their output arrays. Read at the buffers that matter:
    * the edge endpoints and the edge normalization are computed before the first region from the edge list alone, and
      no later operation or region writes them, so they hold the same values at every later boundary;
    * the argument arrays are never written;
    * the stretch between the regions turns the first region's output into the aggregated features (gather by source,
      scale, scatter-add by destination) and reshapes the first bias into a row;
    * the last stretch turns the second region's output into the result (the same aggregation, plus the second bias).
  The host operations are the reference program's own, so each reading is stated with the reference's pieces.
-/
import proofs.«158911_j52089363366228_2_alg».proof.Proof.Gen.KernelIdeal.Frame
import proofs.«158911_j52089363366228_2_alg».proof.Proof.RefPieces
import Idealize.ShloMosaic.PureOps.Ideal
import Idealize.ShloMosaic.Lib.StableHlo.Run

set_option maxRecDepth 16384

noncomputable section

namespace Cert.KernelIdeal.HostFold

open Cert.KernelIdeal Cert.KernelIdeal.Gen Cert.ReferenceIdeal.Pieces
open Idealize.ShloMosaic Idealize.ShloMosaic.TcCoe Idealize.SL.Sem

section AnyInstance

variable {F : FTy → Type} [FloatOps F]
variable (m : (ℓ : Loc nD τ sig) → Buf (Elt F) ℓ) (ρ : Dev nD → PrngReg) (c : Dev nD)

/-- A reference that no operation of a host stretch writes keeps its contents over the stretch. -/
local macro "untouched_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## The argument arrays are never written -/

/-- The node features, as the first region finds them. -/
theorem entry0_arg0 : W3 m ρ c (Proc.devRef .tc main_arg0) = m ((c : Thread nD τ).loc main_arg0) :=
  calc W3 m ρ c (Proc.devRef .tc main_arg0)
    _ = W2 m ρ c (Proc.devRef .tc main_arg0) := by untouched_by hostOps0_2
    _ = W1 m ρ c (Proc.devRef .tc main_arg0) := by untouched_by hostOps0_1
    _ = W0 m ρ c (Proc.devRef .tc main_arg0) := by untouched_by hostOps0
    _ = m ((c : Thread nD τ).loc main_arg0) := rfl

/-- The first weight, as the first region finds it. -/
theorem entry0_arg2 : W3 m ρ c (Proc.devRef .tc main_arg2) = m ((c : Thread nD τ).loc main_arg2) :=
  calc W3 m ρ c (Proc.devRef .tc main_arg2)
    _ = W2 m ρ c (Proc.devRef .tc main_arg2) := by untouched_by hostOps0_2
    _ = W1 m ρ c (Proc.devRef .tc main_arg2) := by untouched_by hostOps0_1
    _ = W0 m ρ c (Proc.devRef .tc main_arg2) := by untouched_by hostOps0
    _ = m ((c : Thread nD τ).loc main_arg2) := rfl

/-- The first bias, after the first region. -/
theorem exit0_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by untouched_by hostOps0_2
    _ = W1 m ρ c (Proc.devRef .tc main_arg3) := by untouched_by hostOps0_1
    _ = W0 m ρ c (Proc.devRef .tc main_arg3) := by untouched_by hostOps0
    _ = m ((c : Thread nD τ).loc main_arg3) := rfl

/-- The second weight, as the second region finds it. -/
theorem entry1_arg4 : W5 m ρ c (Proc.devRef .tc main_arg4) = m ((c : Thread nD τ).loc main_arg4) :=
  calc W5 m ρ c (Proc.devRef .tc main_arg4)
    _ = W4 m ρ c (Proc.devRef .tc main_arg4) := by untouched_by hostOps1
    _ = W3 m ρ c (Proc.devRef .tc main_arg4) := W4_of_ne m ρ c main_arg4 (by decide)
    _ = W2 m ρ c (Proc.devRef .tc main_arg4) := by untouched_by hostOps0_2
    _ = W1 m ρ c (Proc.devRef .tc main_arg4) := by untouched_by hostOps0_1
    _ = W0 m ρ c (Proc.devRef .tc main_arg4) := by untouched_by hostOps0
    _ = m ((c : Thread nD τ).loc main_arg4) := rfl

/-- The second bias, after the second region. -/
theorem exit1_arg5 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by untouched_by hostOps1
    _ = W3 m ρ c (Proc.devRef .tc main_arg5) := W4_of_ne m ρ c main_arg5 (by decide)
    _ = W2 m ρ c (Proc.devRef .tc main_arg5) := by untouched_by hostOps0_2
    _ = W1 m ρ c (Proc.devRef .tc main_arg5) := by untouched_by hostOps0_1
    _ = W0 m ρ c (Proc.devRef .tc main_arg5) := by untouched_by hostOps0
    _ = m ((c : Thread nD τ).loc main_arg5) := rfl

/-! ## The edge endpoints and the normalization, computed before the first region from the edge list alone -/

/-- The source endpoints: row 0 of the edge list with the self-loops appended. -/
theorem entry0_src : W3 m ρ c (Proc.devRef .tc main_v5) = srcOf (m ((c : Thread nD τ).loc main_arg1)) := by
  show StableHlo.after hostOps0_2 (StableHlo.after hostOps0_1 (StableHlo.after hostOps0 (W0 m ρ c))) (Proc.devRef .tc main_v5) = _
  after_results_simp
  rfl

/-- The destination endpoints: row 1 of the edge list with the self-loops appended. -/
theorem entry0_dst : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  after_results_simp
  rfl

/-- The normalization of every edge: the inverse square roots of the degrees at its two endpoints, multiplied. -/
theorem entry0_norm : W3 m ρ c (Proc.devRef .tc main_v29) = normOf (F := F) (srcOf (m ((c : Thread nD τ).loc main_arg1))) (dstOf (m ((c : Thread nD τ).loc main_arg1))) := by
  show StableHlo.after hostOps0_2 (StableHlo.after hostOps0_1 (StableHlo.after hostOps0 (W0 m ρ c))) (Proc.devRef .tc main_v29) = _
  after_results_simp
  rfl

/-! ## Neither region and no later host operation writes them -/

theorem exit0_src : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem exit0_dst : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem exit0_norm : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem exit1_src : W6 m ρ c (Proc.devRef .tc main_v5) = W4 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by untouched_by hostOps1

theorem exit1_dst : W6 m ρ c (Proc.devRef .tc main_v6) = W4 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by untouched_by hostOps1

theorem exit1_norm : W6 m ρ c (Proc.devRef .tc main_v29) = W4 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := by untouched_by hostOps1

/-! ## The stretch between the regions -/

/-- The first bias reshaped to a row. -/
theorem between_row : W5 m ρ c (Proc.devRef .tc main_v45)
    = shapeCast S1x256 (W4 m ρ c (Proc.devRef .tc main_arg3)) shapeCasts_S256_S1x256 := by
  show StableHlo.after hostOps1 (W4 m ρ c) (Proc.devRef .tc main_v45) = _
  after_results_simp
  rfl

/-! ## The last stretch -/

/-- The result: the second region's output array aggregated, plus the second bias on every row. -/
theorem last_out : W7 m ρ c (Proc.devRef .tc main_v62)
    = finish (F := F) (W6 m ρ c (Proc.devRef .tc main_v5)) (W6 m ρ c (Proc.devRef .tc main_v6)) (W6 m ρ c (Proc.devRef .tc main_v29)) (W6 m ρ c (Proc.devRef .tc main_v46)) (W6 m ρ c (Proc.devRef .tc main_arg5)) := by
  show StableHlo.after hostOps2 (W6 m ρ c) (Proc.devRef .tc main_v62) = _
  after_results_simp
  rfl

end AnyInstance

/-! ## The aggregation between the regions, on extended reals -/

section OnExtendedReals

variable (m : (ℓ : Loc nD τ sig) → Buf (Elt Ideal) ℓ) (ρ : Dev nD → PrngReg) (c : Dev nD)

/-- The aggregated features the second region reads: the first region's output array gathered by source, scaled by
    the normalization and added by destination (its storage format's widening is the identity on extended reals). -/
theorem between_agg : W5 m ρ c (Proc.devRef .tc main_v44)
    = aggregate256 (F := Ideal) (W4 m ρ c (Proc.devRef .tc main_v5)) (W4 m ρ c (Proc.devRef .tc main_v6)) (W4 m ρ c (Proc.devRef .tc main_v29)) (W4 m ρ c (Proc.devRef .tc main_v30)) := by
  show StableHlo.after hostOps1 (W4 m ρ c) (Proc.devRef .tc main_v44) = _
  after_results_simp
  rfl

end OnExtendedReals

end Cert.KernelIdeal.HostFold

end
-- ==== Proof.Region0Value.lean ====
/- The first layer's product, from blocks to the array. The region computes, 2000 rows at a time over 25 grid points, the
   matrix product of a [50000, 512] array with a [512, 256] weight. On the extended reals the format changes are the
   identity, so each block's payload is the plain sum of products of its block of rows with the weight; the 25 blocks of
   rows tile the output, and the output array ends holding the host's dot_general of the two arrays as the region finds
   them — for any contents at the region's entry. -/
import proofs.«158911_j52089363366228_2_alg».proof.Proof.Gen.KernelIdeal.Frame
import proofs.«158911_j52089363366228_2_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

/-- The whole-array product: entry (i, j) is the sum over k of a(i, k) · w(k, j). -/
def rowsTimesWeight (a : S50000x512.Idx → EReal) (w : S512x256.Idx → EReal) : S50000x256.Idx → EReal :=
  fun i => ∑ k : Fin 512, a (ix2 (⟨(i 0).val, (i 0).isLt⟩ : Fin 50000) k) * w (ix2 k (⟨(i 1).val, (i 1).isLt⟩ : Fin 256))

/-- On the block's matmul the left operand's row coordinate is the output's row. -/
theorem blockDot_lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- Its column coordinate is the contraction position. -/
theorem blockDot_lhs_col (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
/-- The right operand's row coordinate is the contraction position. -/
theorem blockDot_rhs_row (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
/-- Its column coordinate is the output's column. -/
theorem blockDot_rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The body's payload at row r, column j of the block: the format changes are the identity on the extended reals and
    the matmul into the zero splat is the plain sum of products. -/
theorem payload_apply (x0 : Vec Ideal S2000x512 .f32) (x1 : Vec Ideal S512x256 .f32) (r : Fin 2000) (j : Fin 256) :
    Gen.k0_pay1 (F := Ideal) x0 x1 (ix2 r j) = ∑ k : Fin 512, x0 (ix2 r k) * x1 (ix2 k j) := by
  unfold Gen.k0_pay1
  rw [truncf_apply]
  simp only [matmul]
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 r j) ((contrEquiv1 dot_S2000x512_S512x256_S2000x256_1_0_0_1_n_n 512 rfl rfl).symm k) = ix2 r k := funext fun a => Fin.ext (by
    match a with
    | ⟨0, _⟩ => exact blockDot_lhs_row _ _
    | ⟨1, _⟩ => exact (blockDot_lhs_col _ _).trans hk)
  have er : dot_S2000x512_S512x256_S2000x256_1_0_0_1_n_n.rhsIdx (ix2 r j) ((contrEquiv1 dot_S2000x512_S512x256_S2000x256_1_0_0_1_n_n 512 rfl rfl).symm k) = ix2 k j := funext fun a => Fin.ext (by
    match a with
    | ⟨0, _⟩ => exact (blockDot_rhs_row _ _).trans hk
    | ⟨1, _⟩ => exact blockDot_rhs_col _ _)
  rw [truncf_apply, truncf_apply, el, er]

/-- On the whole-array product the left operand's row coordinate is the output's row. -/
theorem arrayDot_lhs_row (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.lhsIdx i q 0).val = (i 0).val := by
  unfold DotDims.lhsIdx
  rw [dif_neg (show ¬(0 : Fin Cert.ReferenceIdeal.S50000x512.rank) ∈ Cert.ReferenceIdeal.dot_S50000x512_S512x256_S50000x256_1_0_0_1_n_n.lhsBatch by decide), dif_pos (show (0 : Fin Cert.ReferenceIdeal.S50000x512.rank) ∈ Cert.ReferenceIdeal.dot_S50000x512_S512x256_S50000x256_1_0_0_1_n_n.lhsNonContracting by decide)]
  rfl
/-- Its column coordinate is the contraction position. -/
theorem arrayDot_lhs_col (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.lhsIdx i q 1).val = (q ⟨0, by decide⟩).val :=
  Cert.ReferenceIdeal.dot_S50000x512_S512x256_S50000x256_1_0_0_1_n_n.lhsIdx_val_of_single rfl i q
/-- The right operand's row coordinate is the contraction position. -/
theorem arrayDot_rhs_row (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.rhsIdx i q 0).val = (q ⟨0, by decide⟩).val :=
  Cert.ReferenceIdeal.dot_S50000x512_S512x256_S50000x256_1_0_0_1_n_n.rhsIdx_val_of_single rfl i q
/-- Its column coordinate is the output's column. -/
theorem arrayDot_rhs_col (i : Cert.ReferenceIdeal.S50000x256.Idx) (q : Cert.ReferenceIdeal.dot_S50000x512_S512x256_S50000x256_1_0_0_1_n_n.contr.Idx) :
    (Cert.ReferenceIdeal.dot_S50000x512_S512x256_S50000x256_1_0_0_1_n_n.rhsIdx i q 1).val = (i 1).val := by
  unfold DotDims.rhsIdx
  rw [dif_neg (show ¬(1 : Fin Cert.ReferenceIdeal.S512x256.rank) ∈ Cert.ReferenceIdeal.dot_S50000x512_S512x256_S50000x256_1_0_0_1_n_n.rhsBatch by decide), dif_pos (show (1 : Fin Cert.ReferenceIdeal.S512x256.rank) ∈ Cert.ReferenceIdeal.dot_S50000x512_S512x256_S50000x256_1_0_0_1_n_n.rhsNonContracting by decide)]
  rfl

/-- The host's dot_general of the two arrays on the extended reals is the whole-array product. -/
theorem dotGeneral_eq (a : FVec Ideal Cert.ReferenceIdeal.S50000x512 .f32) (w : FVec Ideal Cert.ReferenceIdeal.S512x256 .f32) :
    Host.dotGeneral (F := Ideal) Cert.ReferenceIdeal.dot_S50000x512_S512x256_S50000x256_1_0_0_1_n_n none a w = rowsTimesWeight a w := by
  funext i
  simp only [Host.dotGeneral]
  rw [Ideal.dotGeneral_apply, ← Equiv.sum_comp (contrEquiv1 Cert.ReferenceIdeal.dot_S50000x512_S512x256_S50000x256_1_0_0_1_n_n 512 rfl rfl).symm]
  unfold rowsTimesWeight
  refine Finset.sum_congr rfl fun k _ => ?_
  have hk := contrEquiv1_symm_val Cert.ReferenceIdeal.dot_S50000x512_S512x256_S50000x256_1_0_0_1_n_n 512 rfl rfl k
  have el : Cert.ReferenceIdeal.dot_S50000x512_S512x256_S50000x256_1_0_0_1_n_n.lhsIdx i ((contrEquiv1 Cert.ReferenceIdeal.dot_S50000x512_S512x256_S50000x256_1_0_0_1_n_n 512 rfl rfl).symm k) = ix2 (⟨(i 0).val, (i 0).isLt⟩ : Fin 50000) k := funext fun b => Fin.ext (by
    match b with
    | ⟨0, _⟩ => exact arrayDot_lhs_row _ _
    | ⟨1, _⟩ => exact (arrayDot_lhs_col _ _).trans hk)
  have er : Cert.ReferenceIdeal.dot_S50000x512_S512x256_S50000x256_1_0_0_1_n_n.rhsIdx i ((contrEquiv1 Cert.ReferenceIdeal.dot_S50000x512_S512x256_S50000x256_1_0_0_1_n_n 512 rfl rfl).symm k) = ix2 k (⟨(i 1).val, (i 1).isLt⟩ : Fin 256) := funext fun b => Fin.ext (by
    match b with
    | ⟨0, _⟩ => exact (arrayDot_rhs_row _ _).trans hk
    | ⟨1, _⟩ => exact arrayDot_rhs_col _ _)
  rw [el, er]

/-- The block offsets spelt as a pair are zero on both axes. -/
theorem zeroOffsets : (![0, 0] : Fin 2 → Nat) = fun _ => 0 := funext fun a => by fin_cases a <;> rfl

/-- The index maps over the grid: at point t the rows window and the output window sit at block (t, 0), the weight window at (0, 0). -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block of rows: if the left block is rows p·2000 … p·2000 + 1999 of a and the right block is w, the
    payload at (r, j) is the whole-array product at (p·2000 + r, j). -/
theorem block_entry (a : S50000x512.Idx → EReal) (w : S512x256.Idx → EReal)
    (x0 : Vec Ideal S2000x512 .f32) (x1 : Vec Ideal S512x256 .f32) (p : Nat)
    (h0 : ∀ (r : Fin 2000) (k : Fin 512) (i : S50000x512.Idx), (i 0).val = p * 2000 + r.val → (i 1).val = k.val → x0 (ix2 r k) = a i)
    (h1 : ∀ (k : Fin 512) (j : Fin 256), x1 (ix2 k j) = w (ix2 k j))
    (y : S2000x256.Idx) (i : S50000x256.Idx) (hi0 : (i 0).val = p * 2000 + (y 0).val) (hi1 : (i 1).val = (y 1).val) :
    Gen.k0_pay1 (F := Ideal) x0 x1 y = rowsTimesWeight a w i := by
  obtain ⟨r, j, rfl⟩ : ∃ (r : Fin 2000) (j : Fin 256), y = ix2 r j := ⟨y 0, y 1, eq_ix2 y⟩
  rw [payload_apply]
  unfold rowsTimesWeight
  refine Finset.sum_congr rfl fun k _ => ?_
  rw [h0 r k (ix2 (⟨(i 0).val, (i 0).isLt⟩ : Fin 50000) k) hi0 rfl, h1]
  have e : (⟨(i 1).val, (i 1).isLt⟩ : Fin 256) = j := Fin.ext hi1
  rw [e]

variable (V : (c : Dev nD) → (b : Ref sig .tc) → Buf (Elt Ideal) ((c : Thread nD τ).loc b))

/-- The rows window's block at point t is rows t·2000 … t·2000 + 1999 of the first array. -/
theorem rowsBlock_apply (c : Dev nD) (t : Fin cfg0.N) (r : Fin 2000) (k : Fin 512) (i : S50000x512.Idx)
    (hi0 : (i 0).val = t.val * 2000 + r.val) (hi1 : (i 1).val = k.val) :
    (Gen.iblk0 (F := Ideal) V c 0 t : Vec Ideal S2000x512 .f32) (ix2 r k) = (V c main_arg0 : S50000x512.Idx → EReal) i := by
  obtain ⟨e0, e1, -, -, -, -⟩ := blockIndex t
  unfold Gen.iblk0
  rw [View.read_apply]
  show V c main_arg0 _ = V c main_arg0 _
  congr 1
  funext b
  apply Fin.ext
  match b with
  | ⟨0, _⟩ => show win0_0.index t 0 * 2000 + 1 * r.val = (i 0).val; rw [e0, hi0]; omega
  | ⟨1, _⟩ => show win0_0.index t 1 * 512 + 1 * k.val = (i 1).val; rw [e1, hi1]; omega

/-- The weight window's block at every point is the whole weight. -/
theorem weightBlock_apply (c : Dev nD) (t : Fin cfg0.N) (k : Fin 512) (j : Fin 256) :
    (Gen.iblk0 (F := Ideal) V c 1 t : Vec Ideal S512x256 .f32) (ix2 k j) = (V c main_arg2 : S512x256.Idx → EReal) (ix2 k j) := by
  obtain ⟨-, -, e0, e1, -, -⟩ := blockIndex t
  unfold Gen.iblk0
  rw [View.read_apply]
  show V c main_arg2 _ = V c main_arg2 _
  congr 1
  funext b
  apply Fin.ext
  match b with
  | ⟨0, _⟩ => show win0_1.index t 0 * 512 + 1 * k.val = k.val; rw [e0]; omega
  | ⟨1, _⟩ => show win0_1.index t 1 * 256 + 1 * j.val = j.val; rw [e1]; omega

/-- What point t writes back is block t of the whole-array product of the two arrays as the region finds them. -/
theorem flushed_eq (c : Dev nD) (t : Fin cfg0.N) :
    (Gen.dat0 (F := Ideal) V c).flushed 2 t
      = ((cfg0.win 2).blk t).view.read (Elt Ideal) (rowsTimesWeight (V c main_arg0) (V c main_arg2)) := by
  show (cfg0.win 2).cut (grid0.coords t) ((Gen.dat0 (F := Ideal) V c).after 2 t) = _
  rw [Gen.after0_2]
  unfold Gen.out0_2
  rw [View.canon_unit_zero zeroOffsets]
  simp only [View.ld_unit_zero (S := S2000x512) zeroOffsets, View.ld_unit_zero (S := S512x256) zeroOffsets]
  obtain ⟨-, -, -, -, e0, e1⟩ := blockIndex t
  funext y
  rw [View.read_apply]
  refine block_entry (V c main_arg0) (V c main_arg2) _ _ t.val (rowsBlock_apply V c t) (weightBlock_apply V c t) _ _ ?_ ?_
  · show win0_2.index t 0 * 2000 + 1 * (y 0).val = t.val * 2000 + (y 0).val
    rw [e0]; omega
  · show win0_2.index t 1 * 256 + 1 * (y 1).val = (y 1).val
    rw [e1]; omega

/-- An index of the output array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Row i₀ of the output is written back by point i₀ / 2000: the 25 blocks of 2000 rows tile the 50000 rows. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := Gen.N_0
  have ht : (i 0).val / 2000 < grid0.N := by rw [hN]; omega
  obtain ⟨-, -, -, -, e0, e1⟩ := blockIndex ⟨(i 0).val / 2000, ht⟩
  refine ⟨⟨(i 0).val / 2000, ht⟩, Gen.flush0_2 _, ?_⟩
  rw [mem_block]
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ 1 * 256 ≤ (i 1).val ∧ (i 1).val < win0_2.index ⟨(i 0).val / 2000, ht⟩ 1 * 256 + 256
    rw [e1]; omega

/-- The output array after the region: the host's dot_general of the two arrays the region found. -/
theorem final (c : Dev nD) :
    (Gen.dat0 (F := Ideal) V c).arrAt 2 cfg0.N
      = Host.dotGeneral (F := Ideal) (φ₁ := .f32) (φ₂ := .f32) Cert.ReferenceIdeal.dot_S50000x512_S512x256_S50000x256_1_0_0_1_n_n none (V c main_arg0) (V c main_arg2) :=
  ((Gen.dat0 (F := Ideal) V c).arrAt_eq_of_cover 2 (rowsTimesWeight (V c main_arg0) (V c main_arg2))
    (fun t _ => flushed_eq V c t) cover).trans (dotGeneral_eq _ _).symm

end Cert.KernelIdeal.Region0

end
-- ==== Proof.Region1Value.lean ====
/- Region 1 (the fused bias, rectifier and second matrix product) read as ONE function of the three arrays it reads.
   Its 25 grid points each take 2000 rows of the aggregated features, the whole bias row and the whole 256x2 weight, and
   write 2000 rows of the output: row `r`, column `j` of a block is the sum over the 256 features `k` of
   `max (a r k + b k) 0 * w k j` (`pay_apply`; the two narrowing format changes are the identity on extended reals and the
   product accumulates into zero). The same sum is the reference's `dot_general` of the rectified, biased features with
   the weight, read at an index of the whole array (`ref_apply`). Each point's written block is its rows of that one
   function `G` (`flushed_eq`), the 25 blocks cover the 50000 rows (`cover`), so the output array ends holding the
   reference's term (`final`), for any contents `V` of the buffers when the region is entered. -/
import proofs.«158911_j52089363366228_2_alg».proof.Proof.Gen.KernelIdeal.Frame
import proofs.«158911_j52089363366228_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx
open scoped BigOperators

namespace Cert.KernelIdeal.Region1

open Cert.KernelIdeal Cert.KernelIdeal.Gen

/-- The rectifier's threshold: the extended real the word `0x00000000` encodes. -/
abbrev zero : EReal := Ideal.ofBits .f32 0x00000000#32

/-- The rectified, biased feature: `max (a + b) 0`. -/
abbrev relu (a b : EReal) : EReal := FloatOps.maximumf (F := Ideal) (φ := .f32) (FloatOps.addf (F := Ideal) (φ := .f32) a b) zero

/-- The block product's left operand index keeps the output's row … -/
theorem lhs_row (i : S2000x2.Idx) (q : dot_S2000x256_S256x2_S2000x2_1_0_0_1_n_n.contr.Idx) :
    (dot_S2000x256_S256x2_S2000x2_1_0_0_1_n_n.lhsIdx i q 0).val = (i 0).val := by
  unfold DotDims.lhsIdx
  rw [dif_neg (show ¬(0 : Fin S2000x256.rank) ∈ dot_S2000x256_S256x2_S2000x2_1_0_0_1_n_n.lhsBatch by decide),
    dif_pos (show (0 : Fin S2000x256.rank) ∈ dot_S2000x256_S256x2_S2000x2_1_0_0_1_n_n.lhsNonContracting by decide)]
  rfl
/-- … and its right operand index the output's column. -/
theorem rhs_col (i : S2000x2.Idx) (q : dot_S2000x256_S256x2_S2000x2_1_0_0_1_n_n.contr.Idx) :
    (dot_S2000x256_S256x2_S2000x2_1_0_0_1_n_n.rhsIdx i q 1).val = (i 1).val := by
  unfold DotDims.rhsIdx
  rw [dif_neg (show ¬(1 : Fin S256x2.rank) ∈ dot_S2000x256_S256x2_S2000x2_1_0_0_1_n_n.rhsBatch by decide),
    dif_pos (show (1 : Fin S256x2.rank) ∈ dot_S2000x256_S256x2_S2000x2_1_0_0_1_n_n.rhsNonContracting by decide)]
  rfl

/-- The body's payload at row `r`, column `j` of its block: the sum over the 256 features of the rectified, biased
    feature times the weight. The two format changes are the identity on extended reals, the accumulator is zero. -/
theorem pay_apply (x0 : Vec Ideal S2000x256 .f32) (x1 : Vec Ideal S1x256 .f32) (x2 : Vec Ideal S256x2 .f32)
    (r : Fin 2000) (j : Fin 2) :
    k1_pay1 (F := Ideal) x0 x1 x2 (ix2 r j)
      = ∑ k : Fin 256, relu (x0 (ix2 r k)) (x1 (ix2 (0 : Fin 1) k)) * x2 (ix2 k j) := by
  unfold k1_pay1
  simp only [matmul]
  rw [Ideal.matmul_constant_zero_apply,
    ← Equiv.sum_comp (contrEquiv1 dot_S2000x256_S256x2_S2000x2_1_0_0_1_n_n 256 rfl rfl).symm]
  refine Finset.sum_congr rfl fun k _ => ?_
  have hk := contrEquiv1_symm_val dot_S2000x256_S256x2_S2000x2_1_0_0_1_n_n 256 rfl rfl k
  have el : dot_S2000x256_S256x2_S2000x2_1_0_0_1_n_n.lhsIdx (ix2 r j)
      ((contrEquiv1 dot_S2000x256_S256x2_S2000x2_1_0_0_1_n_n 256 rfl rfl).symm k) = ix2 r k := funext fun a => Fin.ext (by
    match a with
    | ⟨0, _⟩ => exact lhs_row _ _
    | ⟨1, _⟩ => exact (dot_S2000x256_S256x2_S2000x2_1_0_0_1_n_n.lhsIdx_val_of_single rfl _ _).trans hk)
  have er : dot_S2000x256_S256x2_S2000x2_1_0_0_1_n_n.rhsIdx (ix2 r j)
      ((contrEquiv1 dot_S2000x256_S256x2_S2000x2_1_0_0_1_n_n 256 rfl rfl).symm k) = ix2 k j := funext fun a => Fin.ext (by
    match a with
    | ⟨0, _⟩ => exact (dot_S2000x256_S256x2_S2000x2_1_0_0_1_n_n.rhsIdx_val_of_single rfl _ _).trans hk
    | ⟨1, _⟩ => exact rhs_col _ _)
  rw [el, er]
  simp only [truncf_apply, maximumf_apply, addf_apply, broadcast_apply, shapeCast_self, broadcastTo_1b_ab_apply]
  rfl

/-- What the region leaves in its output array, as ONE function of the three arrays it reads: row `i 0` of the
    aggregated features plus the bias row, rectified, times column `i 1` of the weight. -/
def G (A : S50000x256.Idx → EReal) (B : S1x256.Idx → EReal) (W : S256x2.Idx → EReal) : S50000x2.Idx → EReal :=
  fun i => ∑ k : Fin 256, relu (A (ix2 (n0 := 50000) (i 0) k)) (B (ix2 (0 : Fin 1) k)) * W (ix2 (n1 := 2) k (i 1))

/-- The payload of blocks that are rows of `A` (row `y 0` of the block is row `i 0` of the array), all of `B` and all
    of `W` is `G A B W` at `i`, when the block's column `y 1` is the array's column `i 1`. -/
theorem block_apply (x0 : Vec Ideal S2000x256 .f32) (x1 : Vec Ideal S1x256 .f32) (x2 : Vec Ideal S256x2 .f32)
    (A : S50000x256.Idx → EReal) (B : S1x256.Idx → EReal) (W : S256x2.Idx → EReal) (y : S2000x2.Idx) (i : S50000x2.Idx)
    (h0 : ∀ k : Fin 256, x0 (ix2 (n0 := 2000) (y 0) k) = A (ix2 (n0 := 50000) (i 0) k))
    (h1 : ∀ k : Fin 256, x1 (ix2 (0 : Fin 1) k) = B (ix2 (0 : Fin 1) k))
    (h2 : ∀ k : Fin 256, x2 (ix2 (n1 := 2) k (y 1)) = W (ix2 (n1 := 2) k (i 1))) :
    k1_pay1 (F := Ideal) x0 x1 x2 y = G A B W i := by
  obtain ⟨p, q, rfl⟩ : ∃ (p : Fin 2000) (q : Fin 2), y = ix2 p q := ⟨y 0, y 1, eq_ix2 y⟩
  rw [pay_apply]
  exact Finset.sum_congr rfl fun k _ => by
    rw [show x0 (ix2 p k) = _ from h0 k, h1 k, show x2 (ix2 k q) = _ from h2 k]

/-- The reference's left operand index keeps the output's row … -/
theorem ref_lhs_row (i : Cert.ReferenceIdeal.S50000x2.Idx) (q : Cert.ReferenceIdeal.dot_S50000x256_S256x2_S50000x2_1_0_0_1_n_n.contr.Idx) :
    (Cert.ReferenceIdeal.dot_S50000x256_S256x2_S50000x2_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x2_S50000x2_1_0_0_1_n_n.lhsBatch by decide),
    dif_pos (show (0 : Fin Cert.ReferenceIdeal.S50000x256.rank) ∈ Cert.ReferenceIdeal.dot_S50000x256_S256x2_S50000x2_1_0_0_1_n_n.lhsNonContracting by decide)]
  rfl
/-- … and its right operand index the output's column. -/
theorem ref_rhs_col (i : Cert.ReferenceIdeal.S50000x2.Idx) (q : Cert.ReferenceIdeal.dot_S50000x256_S256x2_S50000x2_1_0_0_1_n_n.contr.Idx) :
    (Cert.ReferenceIdeal.dot_S50000x256_S256x2_S50000x2_1_0_0_1_n_n.rhsIdx i q 1).val = (i 1).val := by
  unfold DotDims.rhsIdx
  rw [dif_neg (show ¬(1 : Fin Cert.ReferenceIdeal.S256x2.rank) ∈ Cert.ReferenceIdeal.dot_S50000x256_S256x2_S50000x2_1_0_0_1_n_n.rhsBatch by decide),
    dif_pos (show (1 : Fin Cert.ReferenceIdeal.S256x2.rank) ∈ Cert.ReferenceIdeal.dot_S50000x256_S256x2_S50000x2_1_0_0_1_n_n.rhsNonContracting by decide)]
  rfl

/-- The reference's operations on the same three arrays — the bias row broadcast over the rows, the sum, the maximum
    with the zero splat, the product with the weight — read at an index: `G`. -/
theorem ref_apply (A : FVec Ideal Cert.ReferenceIdeal.S50000x256 .f32) (B : FVec Ideal Cert.ReferenceIdeal.S1x256 .f32)
    (W : FVec Ideal Cert.ReferenceIdeal.S256x2 .f32) (i : Cert.ReferenceIdeal.S50000x2.Idx) :
    Host.dotGeneral (F := Ideal) Cert.ReferenceIdeal.dot_S50000x256_S256x2_S50000x2_1_0_0_1_n_n none
        (maximumf (addf A (broadcastInDim Cert.ReferenceIdeal.S50000x256 ![0, 1] Cert.ReferenceIdeal.Facts₀.bcast_S1x256_S50000x256_0_1 B))
          (broadcastInDim Cert.ReferenceIdeal.S50000x256 ![] Cert.ReferenceIdeal.Facts₀.bcast_S_S50000x256
            (constant (F := Ideal) Cert.ReferenceIdeal.S_ .f32 0x00000000#32)))
        W i
      = G A B W i := by
  obtain ⟨p, q, rfl⟩ : ∃ (p : Fin 50000) (q : Fin 2), i = ix2 p q := ⟨i 0, i 1, eq_ix2 i⟩
  simp only [Host.dotGeneral]
  rw [Ideal.dotGeneral_apply,
    ← Equiv.sum_comp (contrEquiv1 Cert.ReferenceIdeal.dot_S50000x256_S256x2_S50000x2_1_0_0_1_n_n 256 rfl rfl).symm]
  refine Finset.sum_congr rfl fun k _ => ?_
  have hk := contrEquiv1_symm_val Cert.ReferenceIdeal.dot_S50000x256_S256x2_S50000x2_1_0_0_1_n_n 256 rfl rfl k
  have el : Cert.ReferenceIdeal.dot_S50000x256_S256x2_S50000x2_1_0_0_1_n_n.lhsIdx (ix2 p q)
      ((contrEquiv1 Cert.ReferenceIdeal.dot_S50000x256_S256x2_S50000x2_1_0_0_1_n_n 256 rfl rfl).symm k) = ix2 p k := funext fun a => Fin.ext (by
    match a with
    | ⟨0, _⟩ => exact ref_lhs_row _ _
    | ⟨1, _⟩ => exact (Cert.ReferenceIdeal.dot_S50000x256_S256x2_S50000x2_1_0_0_1_n_n.lhsIdx_val_of_single rfl _ _).trans hk)
  have er : Cert.ReferenceIdeal.dot_S50000x256_S256x2_S50000x2_1_0_0_1_n_n.rhsIdx (ix2 p q)
      ((contrEquiv1 Cert.ReferenceIdeal.dot_S50000x256_S256x2_S50000x2_1_0_0_1_n_n 256 rfl rfl).symm k) = ix2 k q := funext fun a => Fin.ext (by
    match a with
    | ⟨0, _⟩ => exact (Cert.ReferenceIdeal.dot_S50000x256_S256x2_S50000x2_1_0_0_1_n_n.rhsIdx_val_of_single rfl _ _).trans hk
    | ⟨1, _⟩ => exact ref_rhs_col _ _)
  rw [el, er]
  simp only [maximumf_apply, addf_apply]
  rw [broadcastInDim_apply _ Cert.ReferenceIdeal.Facts₀.bcast_S1x256_S50000x256_0_1 B (ix2 p k) (ix2 (0 : Fin 1) k) (fun a => match a with
      | ⟨0, _⟩ => by show 0 = if (1 : Nat) = 1 then 0 else p.val; rw [if_pos rfl]
      | ⟨1, _⟩ => by show k.val = if (256 : Nat) = 1 then 0 else k.val; rw [if_neg (by decide)]),
    broadcastInDim_apply _ Cert.ReferenceIdeal.Facts₀.bcast_S_S50000x256 _ (ix2 p k) ix0 (fun a => a.elim0)]
  rfl

section Region
variable (V : (c : Dev nD) → (b : Ref sig .tc) → Buf (Elt Ideal) ((c : Thread nD τ).loc b))

theorem zero_offsets : (![0, 0] : Fin 2 → Nat) = fun _ => 0 := funext fun a => by fin_cases a <;> rfl

/-- The windows' index maps, decided over the grid: the feature window and the output window are at block row `t`,
    block column 0; the bias row and the weight are at block (0, 0) at every point. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature window's block at point `t` is rows `2000 t … 2000 t + 1999` of the aggregated features. -/
theorem rows_apply (c : Dev nD) (t : Fin cfg1.N) (y : S2000x256.Idx) (i : S50000x256.Idx)
    (h0 : (i 0).val = t.val * 2000 + (y 0).val) (h1 : (i 1).val = (y 1).val) :
    (iblk1 (F := Ideal) V c 0 t : Vec Ideal S2000x256 .f32) y = (V c main_v44 : S50000x256.Idx → EReal) i := by
  obtain ⟨e0, e1, -⟩ := index_facts t
  unfold iblk1
  show V c main_v44 (((cfg1.win 0).blk t).view.emb y) = V c main_v44 i
  congr 1; funext a; apply Fin.ext
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- The bias window's block at every point is the whole bias row. -/
theorem bias_apply (c : Dev nD) (t : Fin cfg1.N) (y : S1x256.Idx) :
    (iblk1 (F := Ideal) V c 1 t : Vec Ideal S1x256 .f32) y = (V c main_v45 : S1x256.Idx → EReal) y := by
  obtain ⟨-, -, e2, e3, -⟩ := index_facts t
  unfold iblk1
  show V c main_v45 (((cfg1.win 1).blk t).view.emb y) = V c main_v45 y
  congr 1; funext a; apply Fin.ext
  match a with
  | ⟨0, _⟩ => show win1_1.index t (0 : Fin 2) * 1 + 1 * (y 0).val = (y 0).val; rw [e2]; omega
  | ⟨1, _⟩ => show win1_1.index t (1 : Fin 2) * 256 + 1 * (y 1).val = (y 1).val; rw [e3]; omega

/-- The weight window's block at every point is the whole weight, read at the same row and at a column of equal value. -/
theorem weight_apply (c : Dev nD) (t : Fin cfg1.N) (y i : S256x2.Idx) (h0 : (i 0).val = (y 0).val) (h1 : (i 1).val = (y 1).val) :
    (iblk1 (F := Ideal) V c 2 t : Vec Ideal S256x2 .f32) y = (V c main_arg4 : S256x2.Idx → EReal) i := by
  obtain ⟨-, -, -, -, e4, e5, -⟩ := index_facts t
  unfold iblk1
  show V c main_arg4 (((cfg1.win 2).blk t).view.emb y) = V c main_arg4 i
  congr 1; funext a; apply Fin.ext
  match a with
  | ⟨0, _⟩ => show win1_2.index t (0 : Fin 2) * 256 + 1 * (y 0).val = (i 0).val; rw [e4, h0]; omega
  | ⟨1, _⟩ => show win1_2.index t (1 : Fin 2) * 2 + 1 * (y 1).val = (i 1).val; rw [e5, h1]; omega

/-- WHAT POINT `t` WRITES BACK is block `t` of `G` of the three arrays as the region finds them. -/
theorem flushed_eq (c : Dev nD) (t : Fin cfg1.N) :
    (dat1 (F := Ideal) V c).flushed 3 t
      = ((cfg1.win 3).blk t).view.read (Elt Ideal) (G (V c main_v44) (V c main_v45) (V c main_arg4)) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S1x256) zero_offsets,
    View.ld_unit_zero (S := S256x2) zero_offsets]
  obtain ⟨-, -, -, -, -, -, e6, e7⟩ := index_facts t
  funext j
  show k1_pay1 (F := Ideal) (iblk1 V c 0 t) (iblk1 V c 1 t) (iblk1 V c 2 t) ((cfg1.win 3).xinj (grid1.coords t) j)
    = G (V c main_v44) (V c main_v45) (V c main_arg4) (((cfg1.win 3).blk t).view.emb j)
  refine block_apply _ _ _ _ _ _ _ _ (fun k => ?_) (fun k => ?_) (fun k => ?_)
  · refine rows_apply V c t _ _ ?_ rfl
    show win1_3.index t (0 : Fin 2) * 2000 + 1 * (j 0).val = t.val * 2000 + (j 0).val
    rw [e6]; omega
  · exact bias_apply V c t _
  · refine weight_apply V c t _ _ rfl ?_
    show win1_3.index t (1 : Fin 2) * 2 + 1 * (j 1).val = (j 1).val
    rw [e7]; omega

/-- An index of the output array is in point `t`'s block iff each coordinate is in the block's range on its axis. -/
theorem mem_blk (t : Fin cfg1.N) (i : S50000x2.Idx) :
    i ∈ ((cfg1.win 3).blk t).view.set ↔ ∀ a : Fin 2, win1_3.index t a * S2000x2.size a ≤ (i a).val ∧ (i a).val < win1_3.index t a * S2000x2.size a + S2000x2.size a := by
  show i ∈ ((View.whole main_v46).slice (win1_3.rect t)).set ↔ _
  rw [View.set_slice_whole, Rect.mem_set_unit]
  exact Iff.rfl

/-- Every index of the output array is in the block of the point `i 0 / 2000`, and every point writes back. -/
theorem cover (i : S50000x2.Idx) : ∃ t : Fin cfg1.N, (cfg1.win 3).flush t = true ∧ i ∈ ((cfg1.win 3).blk t).view.set := by
  have h0 : (i 0).val < 50000 := (i 0).isLt
  have h1 : (i 1).val < 2 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, e6, e7⟩ := index_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; rw [e6, ht]; omega
  | ⟨1, _⟩ => show win1_3.index t (1 : Fin 2) * 2 ≤ (i 1).val ∧ (i 1).val < win1_3.index t (1 : Fin 2) * 2 + 2; rw [e7]; omega

/-- THE OUTPUT ARRAY after the region: the reference's operations on the three arrays the region reads. -/
theorem final (c : Dev nD) :
    (dat1 (F := Ideal) V c).arrAt 3 cfg1.N
      = Host.dotGeneral (F := Ideal) (φ₁ := .f32) (φ₂ := .f32) Cert.ReferenceIdeal.dot_S50000x256_S256x2_S50000x2_1_0_0_1_n_n none
          (maximumf (addf (V c main_v44)
              (broadcastInDim Cert.ReferenceIdeal.S50000x256 ![0, 1] Cert.ReferenceIdeal.Facts₀.bcast_S1x256_S50000x256_0_1 (V c main_v45)))
            (broadcastInDim Cert.ReferenceIdeal.S50000x256 ![] Cert.ReferenceIdeal.Facts₀.bcast_S_S50000x256
              (constant (F := Ideal) Cert.ReferenceIdeal.S_ .f32 0x00000000#32)))
          (V c main_arg4) :=
  ((dat1 V c).arrAt_eq_of_cover 3 (G (V c main_v44) (V c main_v45) (V c main_arg4)) (fun t _ => flushed_eq V c t) cover).trans
    (funext fun i => (ref_apply (V c main_v44) (V c main_v45) (V c main_arg4) i).symm)

end Region

end Cert.KernelIdeal.Region1

end
-- ==== Proof.KernelValue.lean ====
/-
  The idealized kernel program's result as a function of its six arguments. The first region's output array is the
  node features times the first weight (block of rows by block of rows, which at extended reals is the whole product);
  the stretch between the regions aggregates it over the edges; the second region's output array is the rectified
  aggregate-plus-bias times the second weight; the last stretch aggregates that and adds the second bias. Each step
  is the reference program's own piece, so the result is the reference's composition `out` of the same arguments.
-/
import proofs.«158911_j52089363366228_2_alg».proof.Proof.KernelHost
import proofs.«158911_j52089363366228_2_alg».proof.Proof.Region0Value
import proofs.«158911_j52089363366228_2_alg».proof.Proof.Region1Value
import Idealize.ShloMosaic.Lib.Pipeline.Value

set_option maxRecDepth 16384

noncomputable section

namespace Cert.KernelIdeal.ResultValue

open Cert.KernelIdeal Cert.KernelIdeal.Gen Cert.KernelIdeal.HostFold Cert.ReferenceIdeal.Pieces
open Idealize.ShloMosaic Idealize.ShloMosaic.TcCoe Idealize.SL.Sem

/-- A vector of 256 entries reshaped to a 1 × 256 row is the vector laid along the second axis of that row: entry
    `(0, k)` of either is entry `k`. -/
theorem row_eq (b : FVec Ideal S256 .f32) :
    shapeCast S1x256 b shapeCasts_S256_S1x256 = biasRow (F := Ideal) b := by
  funext j
  unfold biasRow
  refine (shapeCast_addUnit_apply ![256] b shapeCasts_S256_S1x256 j).trans ?_
  refine (broadcastInDim_apply _ _ b j (fun a => j a.succ) (fun a => ?_)).symm
  match a with
  | ⟨0, _⟩ => show (j 1).val = if (256 : Nat) = 1 then 0 else (j 1).val; rw [if_neg (by decide)]

variable (m : (ℓ : Loc nD τ sig) → Buf (Elt Ideal) ℓ) (ρ : Dev nD → PrngReg) (c : Dev nD)

/-- The first region leaves the node features times the first weight in its output array. -/
theorem features_out : W4 m ρ c (Proc.devRef .tc main_v30) = (Host.dotGeneral (F := Ideal) (φ₁ := .f32) (φ₂ := .f32) Cert.ReferenceIdeal.dot_S50000x512_S512x256_S50000x256_1_0_0_1_n_n none (m ((c : Thread nD τ).loc main_arg0)) (m ((c : Thread nD τ).loc main_arg2))) := by
  refine (W4_arr m ρ c 2).trans ((Region0.final (V3 m ρ) c).trans ?_)
  have e0 : V3 m ρ c main_arg0 = (m ((c : Thread nD τ).loc main_arg0)) := entry0_arg0 m ρ c
  have e2 : V3 m ρ c main_arg2 = (m ((c : Thread nD τ).loc main_arg2)) := entry0_arg2 m ρ c
  rw [e0, e2]

/-- The second region reads the aggregate of that product over the edges, -/
theorem aggregate_in : V5 m ρ c main_v44 = (aggregate256 (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Host.dotGeneral (F := Ideal) (φ₁ := .f32) (φ₂ := .f32) Cert.ReferenceIdeal.dot_S50000x512_S512x256_S50000x256_1_0_0_1_n_n none (m ((c : Thread nD τ).loc main_arg0)) (m ((c : Thread nD τ).loc main_arg2)))) := by
  show W5 m ρ c (Proc.devRef .tc main_v44) = _
  rw [between_agg, exit0_src, exit0_dst, exit0_norm, entry0_src, entry0_dst, entry0_norm, features_out]

/-- the first bias as a row, -/
theorem row_in : V5 m ρ c main_v45 = biasRow (F := Ideal) (m ((c : Thread nD τ).loc main_arg3)) := by
  show W5 m ρ c (Proc.devRef .tc main_v45) = _
  rw [between_row, exit0_arg3, row_eq]

/-- and the second weight. -/
theorem weight_in : V5 m ρ c main_arg4 = (m ((c : Thread nD τ).loc main_arg4)) := entry1_arg4 m ρ c

/-- The second region leaves the hidden layer times the second weight in its output array. -/
theorem logits_out : W6 m ρ c (Proc.devRef .tc main_v46) = (Host.dotGeneral (F := Ideal) (φ₁ := .f32) (φ₂ := .f32) Cert.ReferenceIdeal.dot_S50000x256_S256x2_S50000x2_1_0_0_1_n_n none (hidden (F := Ideal) (aggregate256 (F := Ideal) (srcOf (m ((c : Thread nD τ).loc main_arg1))) (dstOf (m ((c : Thread nD τ).loc main_arg1))) (normOf (F := Ideal) (srcOf (m ((c : Thread nD τ).loc main_arg1))) (dstOf (m ((c : Thread nD τ).loc main_arg1)))) (Host.dotGeneral (F := Ideal) (φ₁ := .f32) (φ₂ := .f32) Cert.ReferenceIdeal.dot_S50000x512_S512x256_S50000x256_1_0_0_1_n_n none (m ((c : Thread nD τ).loc main_arg0)) (m ((c : Thread nD τ).loc main_arg2)))) (biasRow (F := Ideal) (m ((c : Thread nD τ).loc main_arg3)))) (m ((c : Thread nD τ).loc main_arg4))) := by
  refine (W6_arr m ρ c 3).trans ((Region1.final (V5 m ρ) c).trans ?_)
  rw [aggregate_in, row_in, weight_in]
  rfl

/-- THE RESULT of the idealized kernel program is the reference's composition of the same six arguments. -/
theorem result : W7 m ρ c (Proc.devRef .tc main_v62)
    = out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [last_out, exit1_src, exit1_dst, exit1_norm, exit0_src, exit0_dst, exit0_norm, entry0_src, entry0_dst, entry0_norm,
    exit1_arg5, logits_out]
  rfl

end Cert.KernelIdeal.ResultValue

end
-- ==== Proof.lean ====
/-
  The certificate of a two-layer graph convolution whose two matrix products are tiled kernels, against its plain
  reference: `frame_Kernel ∧ frame_KernelIdeal ∧ frame_ReferenceIdeal ∧ preserves_Kernel_KernelIdeal ∧
  algebraic_KernelIdeal_ReferenceIdeal`.

  Both programs compute, for node features `x`, an edge list, weights `W1, W2` and biases `b1, b2`,
      out = A (relu (A (x · W1) + b1) · W2) + b2,
  where `A h` gathers row `src e` of `h` for every edge `e` (self-loops appended), scales it by
  `dinv (src e) · dinv (dst e)` and adds it into row `dst e`. The host operations that build the edge endpoints, the
  degrees, the normalization and the two aggregations are literally the same in the two programs; they differ only
  in the two products, which the kernel program computes 2000 rows at a time (the second fused with the bias and the
  rectifier), and in a narrower storage format for the first product, which is the identity on extended reals. A
  block of rows of a matrix product is the product of that block of rows, so at extended reals the blockwise
  products are the whole ones, and the two results are one function of the arguments; no algebraic law beyond that
  is used and the finiteness of the inputs is not needed.

  The idealization rewrote no operation, so `preserves` is trivial. The three frames are the generated frame runs
  (the reference's is its run with the result dropped).
-/
import proofs.«158911_j52089363366228_2_alg».proof.Defs
import proofs.«158911_j52089363366228_2_alg».proof.Proof.Gen.Kernel
import proofs.«158911_j52089363366228_2_alg».proof.Proof.Gen.Kernel.Skeleton
import proofs.«158911_j52089363366228_2_alg».proof.Proof.Gen.Kernel.Launch
import proofs.«158911_j52089363366228_2_alg».proof.Proof.Gen.Kernel.Points
import proofs.«158911_j52089363366228_2_alg».proof.Proof.Gen.Kernel.Frame
import proofs.«158911_j52089363366228_2_alg».proof.Proof.Gen.KernelIdeal
import proofs.«158911_j52089363366228_2_alg».proof.Proof.Gen.KernelIdeal.Skeleton
import proofs.«158911_j52089363366228_2_alg».proof.Proof.Gen.KernelIdeal.Launch
import proofs.«158911_j52089363366228_2_alg».proof.Proof.Gen.KernelIdeal.Points
import proofs.«158911_j52089363366228_2_alg».proof.Proof.Gen.KernelIdeal.Frame
import proofs.«158911_j52089363366228_2_alg».proof.Proof.Gen.ReferenceIdeal
import proofs.«158911_j52089363366228_2_alg».proof.Proof.Gen.Pre_finite_inputs
import proofs.«158911_j52089363366228_2_alg».proof.Proof.RefRunPatched
import proofs.«158911_j52089363366228_2_alg».proof.Proof.RefOut
import proofs.«158911_j52089363366228_2_alg».proof.Proof.KernelResultRun
import proofs.«158911_j52089363366228_2_alg».proof.Proof.KernelValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the result array at the reference's
    composition `out` of the six arguments: the kernel program by its run read through the two regions and the host
    stretches, the reference by its run's composed term. -/
theorem algebraic : Cert.algebraic_KernelIdeal_ReferenceIdeal := by
  intro m ρ m' ρ' _ hagree
  refine ⟨fun c => Cert.ReferenceIdeal.Pieces.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.ResultValue.result m ρ c), (h c).2⟩)
      (Cert.KernelIdeal.ResultRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Pieces.out_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
